-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x200x1024 : Shape := ⟨3, ![128, 200, 1024]⟩
abbrev S1024x128 : Shape := ⟨2, ![1024, 128]⟩
abbrev S_ : Shape := ⟨0, ![]⟩

class Facts : Prop where
  bcast_S_S128x200x1024 : S_.BroadcastsInDim S128x200x1024 (![] : Fin 0 → Fin S128x200x1024.rank)
  reducesTo_S128x200x1024_S_d0_1_2 : S128x200x1024.ReducesTo [0, 1, 2] S_
  h_S_ : 0 < S_.numel
  bcast_S_S1024x128 : S_.BroadcastsInDim S1024x128 (![] : Fin 0 → Fin S1024x128.rank)
  reducesTo_S1024x128_S_d0_1 : S1024x128.ReducesTo [0, 1] S_

variable [Facts]

def fn {F : FTy → Type} [FloatOps F] (main_arg0 : FVec F S128x200x1024 .f32) (main_arg1 : FVec F S1024x128 .f32) : IVec S_ 1 :=
  let main_v0 : FVec F S128x200x1024 .f32 := Host.absf main_arg0
  let main_cst : FVec F S_ .f32 := constant S_ .f32 0x7F800000#32
  let main_v1 : FVec F S128x200x1024 .f32 := broadcastInDim S128x200x1024 ![] bcast_S_S128x200x1024 main_cst
  let main_v2 : IVec S128x200x1024 1 := cmpf .olt main_v0 main_v1
  let main_c : IVec S_ 1 := constantI S_ 1 1#1
  let main_v3 : IVec S_ 1 := (fun x v => Host.reduce IntOp.andi x v reducesTo_S128x200x1024_S_d0_1_2 h_S_) main_v2 main_c
  let main_v4 : FVec F S1024x128 .f32 := Host.absf main_arg1
  let main_cst_0 : FVec F S_ .f32 := constant S_ .f32 0x7F800000#32
  let main_v5 : FVec F S1024x128 .f32 := broadcastInDim S1024x128 ![] bcast_S_S1024x128 main_cst_0
  let main_v6 : IVec S1024x128 1 := cmpf .olt main_v4 main_v5
  let main_c_1 : IVec S_ 1 := constantI S_ 1 1#1
  let main_v7 : IVec S_ 1 := (fun x v => Host.reduce IntOp.andi x v reducesTo_S1024x128_S_d0_1 h_S_) main_v6 main_c_1
  let main_v8 : IVec S_ 1 := andi main_v3 main_v7
  main_v8
-- ==== Kernel.lean ====
abbrev S128x200x1024 : Shape := ⟨3, ![128, 200, 1024]⟩
abbrev S1024x128 : Shape := ⟨2, ![1024, 128]⟩
abbrev S25600x1024 : Shape := ⟨2, ![25600, 1024]⟩
abbrev S25600x128 : Shape := ⟨2, ![25600, 128]⟩
abbrev S2560x1024 : Shape := ⟨2, ![2560, 1024]⟩
abbrev S2560x128 : Shape := ⟨2, ![2560, 128]⟩
abbrev S2560 : Shape := ⟨1, ![2560]⟩
abbrev S2560x1 : Shape := ⟨2, ![2560, 1]⟩
abbrev S128x200x128 : Shape := ⟨3, ![128, 200, 128]⟩

abbrev nBuf : Space → Nat
  | .hbm => 5
  | .vmem => 5
  | .smem => 0
  | _ => 0

abbrev bufTy : (tb : Table) → Fin (tcTables nBuf tb) → BufTy
  | .hbm, ⟨0, _⟩ => ⟨S128x200x1024, .f32⟩
  | .hbm, ⟨1, _⟩ => ⟨S1024x128, .f32⟩
  | .hbm, ⟨2, _⟩ => ⟨S25600x1024, .f32⟩
  | .hbm, ⟨3, _⟩ => ⟨S25600x128, .f32⟩
  | .hbm, ⟨4, _⟩ => ⟨S128x200x128, .f32⟩
  | .local _ .vmem, ⟨0, _⟩ => ⟨S2560x1024, .f32⟩
  | .local _ .vmem, ⟨1, _⟩ => ⟨S2560x1024, .f32⟩
  | .local _ .vmem, ⟨2, _⟩ => ⟨S1024x128, .f32⟩
  | .local _ .vmem, ⟨3, _⟩ => ⟨S2560x128, .f32⟩
  | .local _ .vmem, ⟨4, _⟩ => ⟨S2560x128, .f32⟩
  | _, _ => ⟨S128x200x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2560x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2560x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S128x200x1024_S25600x1024 : S128x200x1024.ShapeCasts S25600x1024
  inb_S2560x1024_S2560x1024_0_0 : ∀ a, (![0, 0] : Fin 2 → Nat) a + S2560x1024.size a ≤ S2560x1024.size a
  h_S2560x1024 : 0 < S2560x1024.numel
  shapeCasts_S2560x1024_S2560x1024 : S2560x1024.ShapeCasts S2560x1024
  inb_S1024x128_S1024x128_0_0 : ∀ a, (![0, 0] : Fin 2 → Nat) a + S1024x128.size a ≤ S1024x128.size a
  h_S1024x128 : 0 < S1024x128.numel
  bitsLt_bf16_f32 : FTy.bits .bf16 < FTy.bits .f32
  reduces_S2560x1024_S2560 : S2560x1024.Reduces [1] S2560
  shapeCasts_S2560_S2560x1 : S2560.ShapeCasts S2560x1
  broadcasts_S2560x1_S2560x128 : S2560x1.Broadcasts S2560x128
  inb_S2560x128_S2560x128_0_0 : ∀ a, (![0, 0] : Fin 2 → Nat) a + S2560x128.size a ≤ S2560x128.size a
  h_S2560x128 : 0 < S2560x128.numel
  shapeCasts_S25600x128_S128x200x128 : S25600x128.ShapeCasts S128x200x128
  dot_S2560x1024_S1024x128_S2560x128_1_0_0_1_n_n_wf : DotDims.WF S2560x1024 S1024x128 S2560x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2560x1024.size a ≤ S25600x1024.size a
  hwx0_0 : ∀ i : grid0.Coords, EltTy.bits .f32 = 32 ∨ (Rect.block (s := S25600x1024) S2560x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S1024x128.size a
  hwx0_1 : ∀ i : grid0.Coords, EltTy.bits .f32 = 32 ∨ (Rect.block (s := S1024x128) S1024x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2560x128.size a ≤ S25600x128.size a
  hwx0_2 : ∀ i : grid0.Coords, EltTy.bits .f32 = 32 ∨ (Rect.block (s := S25600x128) S2560x128.size (cc0_transform_2 i) (hinb0_2 i)).WholeWords (EltTy.packing .f32)

variable [Facts₀]

def dot_S2560x1024_S1024x128_S2560x128_1_0_0_1_n_n : DotDims S2560x1024 S1024x128 S2560x128 where
  lhsContracting := [1]
  rhsContracting := [0]
  lhsNonContracting := [0]
  rhsNonContracting := [1]
  lhsBatch := []
  rhsBatch := []
  wf := dot_S2560x1024_S1024x128_S2560x128_1_0_0_1_n_n_wf

abbrev win0_0 : Pipeline.Window sig grid0 :=
  Pipeline.Window.ofSpec (Memref.whole main_v0) S2560x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S2560x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S128x200x1024 : Shape := ⟨3, ![128, 200, 1024]⟩
abbrev S1024x128 : Shape := ⟨2, ![1024, 128]⟩
abbrev S128x200x128 : Shape := ⟨3, ![128, 200, 128]⟩
abbrev S_ : Shape := ⟨0, ![]⟩
abbrev S128x200 : Shape := ⟨2, ![128, 200]⟩
abbrev S128x200x1 : Shape := ⟨3, ![128, 200, 1]⟩

abbrev nBuf : Space → Nat
  | .hbm => 12
  | .vmem => 0
  | .smem => 0
  | _ => 0

abbrev bufTy : (tb : Table) → Fin (tcTables nBuf tb) → BufTy
  | .hbm, ⟨0, _⟩ => ⟨S128x200x1024, .f32⟩
  | .hbm, ⟨1, _⟩ => ⟨S1024x128, .f32⟩
  | .hbm, ⟨2, _⟩ => ⟨S128x200x128, .f32⟩
  | .hbm, ⟨3, _⟩ => ⟨S_, .f32⟩
  | .hbm, ⟨4, _⟩ => ⟨S128x200, .f32⟩
  | .hbm, ⟨5, _⟩ => ⟨S128x200x1, .f32⟩
  | .hbm, ⟨6, _⟩ => ⟨S_, .f32⟩
  | .hbm, ⟨7, _⟩ => ⟨S_, .f32⟩
  | .hbm, ⟨8, _⟩ => ⟨S128x200x1, .f32⟩
  | .hbm, ⟨9, _⟩ => ⟨S128x200x1, .f32⟩
  | .hbm, ⟨10, _⟩ => ⟨S128x200x128, .f32⟩
  | .hbm, ⟨11, _⟩ => ⟨S128x200x128, .f32⟩
  | _, _ => ⟨S128x200x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_call0_v0 : Ref sig .tc := ⟨.hbm, 7, rfl⟩
abbrev main_call0_v1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩

abbrev nD : Nat := 1
abbrev τ : Topo := Topo.v7x

variable {F : FTy → Type} [FloatOps F]

class Facts₀ : Prop where
  reducesTo_S128x200x1024_S128x200_d2 : S128x200x1024.ReducesTo [2] S128x200
  h_S_ : 0 < S_.numel
  bcast_S128x200_S128x200x1_0_1 : S128x200.BroadcastsInDim S128x200x1 (![0, 1] : Fin 2 → Fin S128x200x1.rank)
  bcast_S_S128x200x1 : S_.BroadcastsInDim S128x200x1 (![] : Fin 0 → Fin S128x200x1.rank)
  bcast_S128x200x1_S128x200x128_0_1_2 : S128x200x1.BroadcastsInDim S128x200x128 (![0, 1, 2] : Fin 3 → Fin S128x200x128.rank)
  dot_S128x200x1024_S1024x128_S128x200x128_2_0_01_1_n_n_wf : DotDims.WF S128x200x1024 S1024x128 S128x200x128 [2] [0] [0, 1] [1] [] []

variable [Facts₀]

def dot_S128x200x1024_S1024x128_S128x200x128_2_0_01_1_n_n : DotDims S128x200x1024 S1024x128 S128x200x128 where
  lhsContracting := [2]
  rhsContracting := [0]
  lhsNonContracting := [0, 1]
  rhsNonContracting := [1]
  lhsBatch := []
  rhsBatch := []
  wf := dot_S128x200x1024_S1024x128_S128x200x128_2_0_01_1_n_n_wf

class Facts : Prop extends Facts₀ where

variable [Facts]
-- ==== Proof.LibLayout.lean ====
/-
  Layout operations read at coordinates, for shapes the library's own collection does not cover:
  a vector turned into a column, a column repeated along its unit axis, and the two reshapes between a
  three-axis array and the two-axis array whose rows are the pairs of its first two coordinates.
  Each lemma names the operand's index by coordinates, so that it applies by unification.
-/
import Idealize.ShloMosaic.Lib.Pipeline.Value
import Idealize.ShloMosaic.Lib.ValueIdx

namespace Cert.LibLayout

open Idealize.ShloMosaic Idealize.ShloMosaic.ValueIdx

variable {α : Type}

/-- A vector of length `a` cast to a column `[a, 1]` reads, at `(i, u)`, the vector at `i`: the row-major
    position of `(i, u)` is `i · 1 + u = i`, the unit coordinate being zero. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column `[a, 1]` broadcast to `[a, b]` reads, at `(i, j)`, the column's entry of row `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- An array `[a, b, c]` reshaped to `[n, c]` with `n = a · b` reads, at row `r = p · b + q` and column `z`,
    the array at `(p, q, z)`: both have the row-major position `(p · b + q) · c + z`. -/
theorem shapeCast_abc_nc_apply {a b c n : ℕ} (x : (⟨3, ![a, b, c]⟩ : Shape).Idx → α)
    (h : (⟨3, ![a, b, c]⟩ : Shape).ShapeCasts ⟨2, ![n, c]⟩) (p : Fin a) (q : Fin b) (z : Fin c) (r : Fin n)
    (hr : r.val = p.val * b + q.val) : shapeCast ⟨2, ![n, c]⟩ x h (ix2 r z) = x (ix3 p q z) :=
  shapeCast_apply x h _ _ (by
    rw [Shape.rowMajor_val_three, Shape.rowMajor_val_two]
    show (p.val * b + q.val) * c + z.val = r.val * c + z.val
    rw [hr])

/-- The reshape back: `[n, c]` reshaped to `[a, b, c]` reads, at `(p, q, z)`, row `r = p · b + q` at column `z`. -/
theorem shapeCast_nc_abc_apply {a b c n : ℕ} (x : (⟨2, ![n, c]⟩ : Shape).Idx → α)
    (h : (⟨2, ![n, c]⟩ : Shape).ShapeCasts ⟨3, ![a, b, c]⟩) (p : Fin a) (q : Fin b) (z : Fin c) (r : Fin n)
    (hr : r.val = p.val * b + q.val) : shapeCast ⟨3, ![a, b, c]⟩ x h (ix3 p q z) = x (ix2 r z) :=
  shapeCast_apply x h _ _ (by
    rw [Shape.rowMajor_val_two, Shape.rowMajor_val_three]
    show r.val * c + z.val = (p.val * b + q.val) * c + z.val
    rw [hr])

end Cert.LibLayout
-- ==== Proof.Payload.lean ====
/-
  What the kernel body stores, entry by entry.
  The body loads a block of 2560 rows of the batch matrix and the whole embedding table, and stores, at row `r` and
  column `d` of the block, the row's weighted sum of the table's column `d` (a matrix product into a zero
  accumulator; the narrowing of the operands to sixteen bits is the identity on extended reals) divided by the
  row's own sum (a lane reduction from zero), clipped below at one.
-/
import proofs.«155695_j76647986365123_2_alg».proof.Proof.Gen.KernelIdeal.Skeleton
import proofs.«155695_j76647986365123_2_alg».proof.Proof.LibLayout
import Idealize.ShloMosaic.Lib.ValueIdx
import Idealize.ShloMosaic.Lib.Pipeline.Value
import Idealize.ShloMosaic.PureOps.Ideal.Laws

noncomputable section

namespace Cert.AvgEmbed.Body

open Idealize.ShloMosaic Idealize.ShloMosaic.ValueIdx Cert.KernelIdeal Cert.KernelIdeal.Gen

/-- The sum along a row: the lane reduction from the zero pattern, read at row `r`, is the sum of the row's 1024
    entries. -/
theorem lane_sum_apply (v : FVec Ideal S2560x1024 .f32) (h : S2560x1024.Reduces [1] S2560)
    (hacc : (0x00000000#32 : BitVec 32) = 0x00000000#32) (r : Fin 2560) :
    multiReduction (F := Ideal) .add [1] S2560 v 0x00000000#32 h (.inl rfl) hacc (ix1 r) = ∑ k : Fin 1024, v (ix2 r k) :=
  (Ideal.multiReduction_add_single v 0x00000000#32 h (.inl rfl) hacc (ix1 r)).trans
    (Finset.sum_congr rfl fun k _ => congrArg v (funext fun a => Fin.ext (by
      match a with
      | ⟨0, _⟩ => rfl
      | ⟨1, _⟩ => rfl)))

/-! The matrix product's operand indices, coordinate by coordinate: at output entry `(r, d)` and contraction
    coordinate `k` the left operand is read at `(r, k)` and the right one at `(k, d)`. -/

theorem lhs0 (i : S2560x128.Idx) (q : dot_S2560x1024_S1024x128_S2560x128_1_0_0_1_n_n.contr.Idx) :
    (dot_S2560x1024_S1024x128_S2560x128_1_0_0_1_n_n.lhsIdx i q 0).val = (i 0).val := by
  unfold DotDims.lhsIdx
  rw [dif_neg (show ¬(0 : Fin S2560x1024.rank) ∈ dot_S2560x1024_S1024x128_S2560x128_1_0_0_1_n_n.lhsBatch by decide),
    dif_pos (show (0 : Fin S2560x1024.rank) ∈ dot_S2560x1024_S1024x128_S2560x128_1_0_0_1_n_n.lhsNonContracting by decide)]
  rfl
theorem lhs1 (i : S2560x128.Idx) (q : dot_S2560x1024_S1024x128_S2560x128_1_0_0_1_n_n.contr.Idx) :
    (dot_S2560x1024_S1024x128_S2560x128_1_0_0_1_n_n.lhsIdx i q 1).val = (q ⟨0, by decide⟩).val :=
  dot_S2560x1024_S1024x128_S2560x128_1_0_0_1_n_n.lhsIdx_val_of_single rfl i q
theorem rhs0 (i : S2560x128.Idx) (q : dot_S2560x1024_S1024x128_S2560x128_1_0_0_1_n_n.contr.Idx) :
    (dot_S2560x1024_S1024x128_S2560x128_1_0_0_1_n_n.rhsIdx i q 0).val = (q ⟨0, by decide⟩).val :=
  dot_S2560x1024_S1024x128_S2560x128_1_0_0_1_n_n.rhsIdx_val_of_single rfl i q
theorem rhs1 (i : S2560x128.Idx) (q : dot_S2560x1024_S1024x128_S2560x128_1_0_0_1_n_n.contr.Idx) :
    (dot_S2560x1024_S1024x128_S2560x128_1_0_0_1_n_n.rhsIdx i q 1).val = (i 1).val := by
  unfold DotDims.rhsIdx
  rw [dif_neg (show ¬(1 : Fin S1024x128.rank) ∈ dot_S2560x1024_S1024x128_S2560x128_1_0_0_1_n_n.rhsBatch by decide),
    dif_pos (show (1 : Fin S1024x128.rank) ∈ dot_S2560x1024_S1024x128_S2560x128_1_0_0_1_n_n.rhsNonContracting by decide)]
  rfl

/-- The matrix product into the zero accumulator, read at `(r, d)`: the sum over `k` of the left operand's
    row `r` times the right operand's column `d`. -/
theorem matmul_apply_rd (l : FVec Ideal S2560x1024 .bf16) (w : FVec Ideal S1024x128 .bf16) (r : Fin 2560) (d : Fin 128) :
    matmul (F := Ideal) dot_S2560x1024_S1024x128_S2560x128_1_0_0_1_n_n none l w (constant S2560x128 .f32 0x00000000#32) (ix2 r d)
      = ∑ k : Fin 1024, l (ix2 r k) * w (ix2 k d) := by
  simp only [matmul]
  rw [Ideal.matmul_constant_zero_apply, ← Equiv.sum_comp (contrEquiv1 dot_S2560x1024_S1024x128_S2560x128_1_0_0_1_n_n 1024 rfl rfl).symm]
  refine Finset.sum_congr rfl fun k _ => ?_
  have hk := contrEquiv1_symm_val dot_S2560x1024_S1024x128_S2560x128_1_0_0_1_n_n 1024 rfl rfl k
  have el : dot_S2560x1024_S1024x128_S2560x128_1_0_0_1_n_n.lhsIdx (ix2 r d) ((contrEquiv1 dot_S2560x1024_S1024x128_S2560x128_1_0_0_1_n_n 1024 rfl rfl).symm k) = ix2 r k := funext fun a => Fin.ext (by
    match a with
    | ⟨0, _⟩ => exact lhs0 _ _
    | ⟨1, _⟩ => exact (lhs1 _ _).trans hk)
  have er : dot_S2560x1024_S1024x128_S2560x128_1_0_0_1_n_n.rhsIdx (ix2 r d) ((contrEquiv1 dot_S2560x1024_S1024x128_S2560x128_1_0_0_1_n_n 1024 rfl rfl).symm k) = ix2 k d := funext fun a => Fin.ext (by
    match a with
    | ⟨0, _⟩ => exact (rhs0 _ _).trans hk
    | ⟨1, _⟩ => exact rhs1 _ _)
  rw [el, er]

/-- The stored value at row `r`, column `d` of the block. -/
theorem pay_apply (x0 : Vec Ideal S2560x1024 .f32) (x1 : Vec Ideal S1024x128 .f32) (r : Fin 2560) (d : Fin 128) :
    k0_pay1 (F := Ideal) x0 x1 (ix2 r d)
      = Ideal.div (∑ k : Fin 1024, x0 (ix2 r k) * x1 (ix2 k d))
          (max (Ideal.ofBits .f32 0x3F800000#32) (∑ k : Fin 1024, x0 (ix2 r k))) := by
  unfold k0_pay1
  dsimp only
  refine (divf_apply _ _ _).trans ?_
  refine congrArg₂ Ideal.div ?_ ?_
  · -- the product: the narrowed operands are the loaded blocks themselves
    refine (matmul_apply_rd _ _ r d).trans ?_
    refine Finset.sum_congr rfl fun k _ => ?_
    rw [truncf_apply, truncf_apply, shapeCast_self]
  · -- the divisor: the column of clipped row sums, repeated along the 128 columns
    refine (Cert.LibLayout.broadcastTo_a1_ab_apply _ _ r d).trans ?_
    refine (maximumf_apply _ _ _).trans ?_
    refine congrArg₂ max rfl ?_
    refine (Cert.LibLayout.shapeCast_a_a1_apply _ _ r 0).trans ?_
    refine (lane_sum_apply _ _ _ r).trans ?_
    rw [shapeCast_self]

end Cert.AvgEmbed.Body

end
-- ==== Proof.Spec.lean ====
/-
  The function both programs compute, over the extended reals.
  For a batch of 128 × 200 indicator rows `x (b, s, ·)` of length 1024 and an embedding table `e` of 1024 rows of
  length 128, the result at `(b, s, d)` is the row's weighted sum of the table's column `d`, divided by the row's
  own sum clipped below at one:
      (∑ k, x (b, s, k) · e (k, d)) / max 1 (∑ k, x (b, s, k)).
  One program works on the 25600 rows `r = 200 · b + s` of the batch laid out as a matrix; `rowMean` is the same
  quotient on that matrix, and `reshape_rowMean` says the two are one function, re-laid.
  The literal `1.0` is kept as its bit pattern: both programs write the same word, which is never evaluated.
-/
import Idealize.ShloMosaic.PureOps.Ideal
import Idealize.ShloMosaic.Lib.ValueIdx
import proofs.«155695_j76647986365123_2_alg».proof.Proof.LibLayout

noncomputable section

namespace Cert.AvgEmbed

open Idealize.ShloMosaic Idealize.ShloMosaic.ValueIdx

/-- Row `r` of the matrix `y` against column `d` of `e`: the weighted sum over the row, divided by the row's sum
    clipped below at one. -/
def rowMeanAt (y : (⟨2, ![25600, 1024]⟩ : Shape).Idx → EReal) (e : (⟨2, ![1024, 128]⟩ : Shape).Idx → EReal)
    (r : Fin 25600) (d : Fin 128) : EReal :=
  Ideal.div (∑ k : Fin 1024, y (ix2 r k) * e (ix2 k d))
    (max (Ideal.ofBits .f32 0x3F800000#32) (∑ k : Fin 1024, y (ix2 r k)))

/-- The matrix of those quotients. -/
def rowMean (y : (⟨2, ![25600, 1024]⟩ : Shape).Idx → EReal) (e : (⟨2, ![1024, 128]⟩ : Shape).Idx → EReal) :
    (⟨2, ![25600, 128]⟩ : Shape).Idx → EReal :=
  fun j => rowMeanAt y e (j 0) (j 1)

theorem rowMean_ix2 (y : (⟨2, ![25600, 1024]⟩ : Shape).Idx → EReal) (e : (⟨2, ![1024, 128]⟩ : Shape).Idx → EReal)
    (r : Fin 25600) (d : Fin 128) : rowMean y e (ix2 r d) = rowMeanAt y e r d := rfl

/-- The same quotient for row `(b, s)` of the three-axis batch. -/
def meanAt (x : (⟨3, ![128, 200, 1024]⟩ : Shape).Idx → EReal) (e : (⟨2, ![1024, 128]⟩ : Shape).Idx → EReal)
    (b : Fin 128) (s : Fin 200) (d : Fin 128) : EReal :=
  Ideal.div (∑ k : Fin 1024, x (ix3 b s k) * e (ix2 k d))
    (max (Ideal.ofBits .f32 0x3F800000#32) (∑ k : Fin 1024, x (ix3 b s k)))

/-- The whole result: one averaged embedding per row of the batch. -/
def meanEmbed (x : (⟨3, ![128, 200, 1024]⟩ : Shape).Idx → EReal) (e : (⟨2, ![1024, 128]⟩ : Shape).Idx → EReal) :
    (⟨3, ![128, 200, 128]⟩ : Shape).Idx → EReal :=
  fun i => meanAt x e (i 0) (i 1) (i 2)

theorem meanEmbed_ix3 (x : (⟨3, ![128, 200, 1024]⟩ : Shape).Idx → EReal) (e : (⟨2, ![1024, 128]⟩ : Shape).Idx → EReal)
    (b : Fin 128) (s : Fin 200) (d : Fin 128) : meanEmbed x e (ix3 b s d) = meanAt x e b s d := rfl

/-- Row `r = 200 · b + s` of the batch laid out as a matrix is row `(b, s)` of the batch: entry by entry the
    reshape reads the same element, so the two quotients are sums of the same terms. -/
theorem rowMeanAt_reshape (x : (⟨3, ![128, 200, 1024]⟩ : Shape).Idx → EReal)
    (h : (⟨3, ![128, 200, 1024]⟩ : Shape).ShapeCasts ⟨2, ![25600, 1024]⟩) (e : (⟨2, ![1024, 128]⟩ : Shape).Idx → EReal)
    (b : Fin 128) (s : Fin 200) (d : Fin 128) (r : Fin 25600) (hr : r.val = b.val * 200 + s.val) :
    rowMeanAt (shapeCast ⟨2, ![25600, 1024]⟩ x h) e r d = meanAt x e b s d := by
  unfold rowMeanAt meanAt
  have hk : ∀ k : Fin 1024, shapeCast ⟨2, ![25600, 1024]⟩ x h (ix2 r k) = x (ix3 b s k) :=
    fun k => Cert.LibLayout.shapeCast_abc_nc_apply x h b s k r hr
  simp only [hk]

/-- The matrix of row quotients of the re-laid batch, laid back out over `(b, s, d)`, is the batch's result. -/
theorem reshape_rowMean (x : (⟨3, ![128, 200, 1024]⟩ : Shape).Idx → EReal)
    (h : (⟨3, ![128, 200, 1024]⟩ : Shape).ShapeCasts ⟨2, ![25600, 1024]⟩) (e : (⟨2, ![1024, 128]⟩ : Shape).Idx → EReal)
    (h' : (⟨2, ![25600, 128]⟩ : Shape).ShapeCasts ⟨3, ![128, 200, 128]⟩) :
    shapeCast ⟨3, ![128, 200, 128]⟩ (rowMean (shapeCast ⟨2, ![25600, 1024]⟩ x h) e) h' = meanEmbed x e := by
  funext i
  obtain ⟨b, s, d, rfl⟩ : ∃ (b : Fin 128) (s : Fin 200) (d : Fin 128), i = ix3 b s d := ⟨i 0, i 1, i 2, eq_ix3 i⟩
  have hb : b.val < 128 := b.isLt
  have hs : s.val < 200 := s.isLt
  rw [Cert.LibLayout.shapeCast_nc_abc_apply _ h' b s d ⟨b.val * 200 + s.val, by omega⟩ rfl, rowMean_ix2, meanEmbed_ix3]
  exact rowMeanAt_reshape x h e b s d _ rfl

end Cert.AvgEmbed

end
-- ==== Proof.Blocks.lean ====
/-
  From blocks to the whole array.
  The launch runs the body at ten grid points. At point `t` the body sees rows `2560 · t … 2560 · t + 2559` of the
  batch matrix and the whole embedding table, and what it leaves is written back as the same rows of the output.
  So what point `t` writes back is block `t` of ONE function of the two arrays — the matrix of row quotients —,
  the ten blocks cover all 25600 rows, and the output array ends holding that matrix.
-/
import proofs.«155695_j76647986365123_2_alg».proof.Proof.Gen.KernelIdeal.Frame
import proofs.«155695_j76647986365123_2_alg».proof.Proof.Payload
import proofs.«155695_j76647986365123_2_alg».proof.Proof.Spec
import Idealize.ShloMosaic.Lib.Pipeline.Value

set_option maxRecDepth 16384

noncomputable section

namespace Cert.AvgEmbed.Blocks

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ)

theorem hz : (![0, 0] : Fin 2 → Nat) = fun _ => 0 := funext fun a => by fin_cases a <;> rfl

/-- The index maps over the grid: the batch matrix's window and the output's window are at block row `t`, block
    column zero; the embedding table's window never moves. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The stored value from blocks that are rows `R, …` of a matrix `y` and the whole of a table `e`: the row
    quotient of `y` and `e` at row `R`. -/
theorem pay_rows (y : (⟨2, ![25600, 1024]⟩ : Shape).Idx → EReal) (e : (⟨2, ![1024, 128]⟩ : Shape).Idx → EReal)
    (x0 : Vec Ideal S2560x1024 .f32) (x1 : Vec Ideal S1024x128 .f32) (r : Fin 2560) (d : Fin 128) (R : Fin 25600)
    (h0 : ∀ k : Fin 1024, x0 (ix2 r k) = y (ix2 R k)) (h1 : ∀ k : Fin 1024, x1 (ix2 k d) = e (ix2 k d)) :
    k0_pay1 (F := Ideal) x0 x1 (ix2 r d) = Cert.AvgEmbed.rowMeanAt y e R d := by
  rw [Cert.AvgEmbed.Body.pay_apply]
  unfold Cert.AvgEmbed.rowMeanAt
  simp only [h0, h1]

/-- Block `t` of the batch matrix, read at `(r, k)`, is the matrix at row `2560 · t + r`. -/
theorem read_rows (c : Dev nD) (t : Fin cfg0.N) (r : Fin 2560) (k : Fin 1024) (R : Fin 25600)
    (hR : R.val = t.val * 2560 + r.val) : iblk m c 0 t (ix2 r k) = V m c main_v0 (ix2 R k) := by
  show V m c main_v0 (((cfg0.win 0).blk t).view.emb (ix2 r k)) = V m c main_v0 (ix2 R k)
  obtain ⟨e0, e1, -⟩ := idx_facts t
  refine congrArg (V m c main_v0) (funext fun a => Fin.ext ?_)
  match a with
  | ⟨0, _⟩ => show win0_0.index t (0 : Fin 2) * 2560 + 1 * r.val = R.val; omega
  | ⟨1, _⟩ => show win0_0.index t (1 : Fin 2) * 1024 + 1 * k.val = k.val; omega

/-- The embedding table's block is the whole table at every point. -/
theorem read_table (c : Dev nD) (t : Fin cfg0.N) (k : Fin 1024) (d : Fin 128) :
    iblk m c 1 t (ix2 k d) = V m c main_arg1 (ix2 k d) := by
  show V m c main_arg1 (((cfg0.win 1).blk t).view.emb (ix2 k d)) = V m c main_arg1 (ix2 k d)
  obtain ⟨-, -, e2, e3, -⟩ := idx_facts t
  refine congrArg (V m c main_arg1) (funext fun a => Fin.ext ?_)
  match a with
  | ⟨0, _⟩ => show win0_1.index t (0 : Fin 2) * 1024 + 1 * k.val = k.val; omega
  | ⟨1, _⟩ => show win0_1.index t (1 : Fin 2) * 128 + 1 * d.val = d.val; omega

/-- What point `t` writes back is block `t` of the matrix of row quotients of the two arrays as the launch finds
    them. -/
theorem flushed_eq (c : Dev nD) (t : Fin cfg0.N) :
    (dats m 0 c).flushed 2 t
      = ((cfg0.win 2).blk t).view.read (Elt Ideal) (Cert.AvgEmbed.rowMean (V m c main_v0) (V m c main_arg1)) := by
  show (cfg0.win 2).cut (grid0.coords t) ((dats m 0 c).after 2 t) = _
  rw [after0_2]
  unfold out0_2
  rw [View.canon_unit_zero hz]
  simp only [View.ld_unit_zero (S := S2560x1024) hz, View.ld_unit_zero (S := S1024x128) hz]
  funext j
  obtain ⟨r, d, rfl⟩ : ∃ (r : Fin 2560) (d : Fin 128), j = ix2 r d := ⟨j 0, j 1, eq_ix2 j⟩
  obtain ⟨-, -, -, -, e4, e5⟩ := idx_facts t
  have hN : grid0.N = 10 := N_0
  have ht : t.val < 10 := by have h : t.val < grid0.N := t.isLt; omega
  have hr : r.val < 2560 := r.isLt
  have hemb : ((cfg0.win 2).blk t).view.emb (ix2 r d) = ix2 (⟨t.val * 2560 + r.val, by omega⟩ : Fin 25600) d :=
    funext fun a => Fin.ext (by
      match a with
      | ⟨0, _⟩ => show win0_2.index t (0 : Fin 2) * 2560 + 1 * r.val = t.val * 2560 + r.val; omega
      | ⟨1, _⟩ => show win0_2.index t (1 : Fin 2) * 128 + 1 * d.val = d.val; omega)
  show k0_pay1 (F := Ideal) (iblk m c 0 t) (iblk m c 1 t) (ix2 r d)
    = Cert.AvgEmbed.rowMean (V m c main_v0) (V m c main_arg1) (((cfg0.win 2).blk t).view.emb (ix2 r d))
  rw [hemb, Cert.AvgEmbed.rowMean_ix2]
  exact pay_rows (V m c main_v0) (V m c main_arg1) (iblk m c 0 t) (iblk m c 1 t) r d _
    (fun k => read_rows m c t r k _ rfl) (fun k => read_table m c t k d)

/-- An index of the output array is in point `t`'s block iff each coordinate is in the block's range. -/
theorem mem_blk (t : Fin cfg0.N) (i : S25600x128.Idx) :
    i ∈ ((cfg0.win 2).blk t).view.set ↔ ∀ a : Fin 2, win0_2.index t a * S2560x128.size a ≤ (i a).val
      ∧ (i a).val < win0_2.index t a * S2560x128.size a + S2560x128.size a := by
  show i ∈ ((View.whole main_v1).slice (win0_2.rect t)).set ↔ _
  rw [View.set_slice_whole, Rect.mem_set_unit]
  exact Iff.rfl

/-- Every row of the output is in some point's block: row `i` in that of point `i / 2560`. -/
theorem cover (i : S25600x128.Idx) :
    ∃ t : Fin cfg0.N, (cfg0.win 2).flush t = true ∧ i ∈ ((cfg0.win 2).blk t).view.set := by
  have hi0 : (i 0).val < 25600 := (i 0).isLt
  have hi1 : (i 1).val < 128 := (i 1).isLt
  have hN : grid0.N = 10 := N_0
  have hlt : (i 0).val / 2560 < grid0.N := by rw [hN]; omega
  obtain ⟨-, -, -, -, e4, e5⟩ := idx_facts ⟨(i 0).val / 2560, hlt⟩
  refine ⟨⟨(i 0).val / 2560, hlt⟩, flush0_2 _, ?_⟩
  rw [mem_blk]
  intro a
  match a with
  | ⟨0, _⟩ =>
    show win0_2.index ⟨(i 0).val / 2560, hlt⟩ (0 : Fin 2) * 2560 ≤ (i 0).val
      ∧ (i 0).val < win0_2.index ⟨(i 0).val / 2560, hlt⟩ (0 : Fin 2) * 2560 + 2560
    rw [e4]
    show (i 0).val / 2560 * 2560 ≤ (i 0).val ∧ (i 0).val < (i 0).val / 2560 * 2560 + 2560
    omega
  | ⟨1, _⟩ =>
    show win0_2.index ⟨(i 0).val / 2560, hlt⟩ (1 : Fin 2) * 128 ≤ (i 1).val
      ∧ (i 1).val < win0_2.index ⟨(i 0).val / 2560, hlt⟩ (1 : Fin 2) * 128 + 128
    omega

/-- The output array after the launch: the matrix of row quotients of the two arrays as the launch finds them. -/
theorem final (c : Dev nD) :
    (dats m 0 c).arrAt 2 cfg0.N = Cert.AvgEmbed.rowMean (V m c main_v0) (V m c main_arg1) :=
  (dats m 0 c).arrAt_eq_of_cover 2 _ (fun t _ => flushed_eq m c t) cover

end Cert.AvgEmbed.Blocks

end
-- ==== Proof.KernelRun.lean ====
/-
  The kernel program's run, with its result named.
  The program lays the batch out as a matrix of 25600 rows (a reshape before the launch), launches the body over
  the ten blocks of rows, and lays the 25600 result rows back out over `(b, s)` (a reshape after the launch).
  The launch leaves the matrix of row quotients of the re-laid batch; re-laid in turn, that is the averaged
  embedding of the batch as launched.
-/
import proofs.«155695_j76647986365123_2_alg».proof.Proof.Blocks
import Idealize.ShloMosaic.Lib.StableHlo.Run

set_option maxRecDepth 16384

noncomputable section

namespace Cert.AvgEmbed.Run

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

/-- The matrix the launch finds: the batch as launched, re-laid as 25600 rows. -/
theorem V_main_v0 (c : Dev nD) :
    (V m c main_v0 : S25600x1024.Idx → EReal)
      = shapeCast S25600x1024 (m ((c : Thread nD τ).loc main_arg0)) shapeCasts_S128x200x1024_S25600x1024 := by
  show StableHlo.after hostOps0 (fun b => m (c, b)) (Proc.devRef .tc main_v0) = _
  after_results
  rfl

/-- The program's result after the launch: the output array of the launch, re-laid over `(b, s, d)`. -/
theorem tail_eq (c : Dev nD) :
    (Pipeline.afterTail₀ cfgs (dats m) 0 (V0 m) [hostOps1] c main_v2 : S128x200x128.Idx → EReal)
      = shapeCast S128x200x128 ((dats m 0 c).arrAt 2 cfg0.N) shapeCasts_S25600x128_S128x200x128 := by
  unfold Pipeline.afterTail₀
  show StableHlo.after hostOps1 _ (Proc.devRef .tc main_v2) = _
  after_results
  rw [Pipeline.withArrays_arr spec0 launch0.win.arr_inj c _ _ 2]
  rfl

/-- So the result is the averaged embedding of the arguments as launched. -/
theorem result (c : Dev nD) :
    (Pipeline.afterTail₀ cfgs (dats m) 0 (V0 m) [hostOps1] c main_v2 : S128x200x128.Idx → EReal)
      = Cert.AvgEmbed.meanEmbed (m ((c : Thread nD τ).loc main_arg0)) (m ((c : Thread nD τ).loc main_arg1)) := by
  rw [tail_eq, Cert.AvgEmbed.Blocks.final, V_main_v0, V_main_arg1]
  exact Cert.AvgEmbed.reshape_rowMean _ _ _ _

/-- Every weakly fair execution of the kernel program terminates, with the result at the averaged embedding of the
    arguments and the arguments unchanged. -/
theorem run : θ_run defs (onTc (τ := τ) (main (F := Ideal))) ⟨m, fun _ => 0, ρ⟩ fun r => ∀ c : Dev nD,
      r.2.mem ((c.tc : Thread nD τ).loc main_v2)
        = Cert.AvgEmbed.meanEmbed (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v2 (Pipeline.mem_restRefs_of main_v2 (by decide) (by decide))).trans (result m c),
       ((h c).2 main_arg0 (Pipeline.mem_restRefs_of main_arg0 (by decide) (by decide))).trans (W_main_arg0 m (dats m) c),
       ((h c).1 1).trans (((dats m 0 c).arrAt_in 1 rfl _).trans ((A_eq m c 1).trans (V_main_arg1 m c)))⟩)
    (run_main m ρ)

end Cert.AvgEmbed.Run

end
-- ==== Proof.RefValue.lean ====
/-
  The reference computes the specification.
  Read one operation at a time, the reference's result at `(b, s, d)` is the contraction of the batch's row
  `(b, s)` with the table's column `d`, divided by the clip below at one of the row's sum started from zero:
  the same quotient, once the zero the sum starts from is dropped.
-/
import proofs.«155695_j76647986365123_2_alg».proof.Proof.Gen.ReferenceIdeal.Read
import proofs.«155695_j76647986365123_2_alg».proof.Proof.Spec

noncomputable section

namespace Cert.AvgEmbed.Ref

open Idealize.ShloMosaic Idealize.ShloMosaic.ValueIdx Cert.ReferenceIdeal Cert.ReferenceIdeal.Read

/-- The reference's last stage, as a function of the two argument arrays, is the averaged embedding. -/
theorem ref_eq (x0 : (⟨S128x200x1024, .f32⟩ : BufTy).Contents (Elt Ideal)) (x1 : (⟨S1024x128, .f32⟩ : BufTy).Contents (Elt Ideal)) :
    val_main_v5 (F := Ideal) x0 x1 = Cert.AvgEmbed.meanEmbed x0 x1 := by
  funext i
  obtain ⟨b, s, d, rfl⟩ : ∃ (b : Fin 128) (s : Fin 200) (d : Fin 128), i = ix3 b s d := ⟨i 0, i 1, i 2, eq_ix3 i⟩
  -- the operand indices the stages name, by coordinates
  have el : ∀ k : Fin 1024, lidx_main_v0 (ix3 b s d) k = ix3 b s k := fun k => funext fun a => Fin.ext (by
    match a with
    | ⟨0, _⟩ => rfl
    | ⟨1, _⟩ => rfl
    | ⟨2, _⟩ => rfl)
  have er : ∀ k : Fin 1024, ridx_main_v0 (ix3 b s d) k = ix2 k d := fun k => funext fun a => Fin.ext (by
    match a with
    | ⟨0, _⟩ => rfl
    | ⟨1, _⟩ => rfl)
  have es : ∀ k : Fin 1024, idx_main_v1 (idx_main_v2 (idx_main_v4 (ix3 b s d))) k = ix3 b s k := fun k => funext fun a => Fin.ext (by
    match a with
    | ⟨0, _⟩ => rfl
    | ⟨1, _⟩ => rfl
    | ⟨2, _⟩ => rfl)
  rw [val_main_v5_apply, val_main_v0_apply, val_main_v4_apply, val_main_v3_apply, val_main_call0_v1_apply,
    val_main_call0_v0_apply, val_main_cst_0_apply, val_main_v2_apply, val_main_v1_apply, val_main_cst_apply,
    Cert.AvgEmbed.meanEmbed_ix3]
  unfold Cert.AvgEmbed.meanAt
  simp only [el, er, es, Ideal.hostDivf_def, Ideal.maximumf_def, Ideal.ofBits_def, Ideal.ofBits_zero_f32, zero_add]

end Cert.AvgEmbed.Ref

end
-- ==== Proof.lean ====
/-
  Averaged embeddings: a tiled kernel against its array-level reference, over the extended reals.

  For a batch `x` of 128 × 200 indicator rows of length 1024 and an embedding table `e` of 1024 rows of length 128,
  both programs compute, at `(b, s, d)`,
      (∑ k, x (b, s, k) · e (k, d)) / max 1 (∑ k, x (b, s, k)).
  The kernel lays the batch out as a matrix of 25600 rows, computes ten blocks of 2560 rows — per block one matrix
  product into a zero accumulator, one sum along each row, a clip below at one, a division — and lays the result
  back out; the reference contracts the batch with the table, sums each row from zero, clips and divides. Over the
  extended reals the narrowing of the product's operands is the identity, both sums are sums over the same 1024
  terms, the zero a sum starts from is dropped, and the two divisions are the same operation; the reshapes read the
  same elements. No step needs the inputs to be finite: commutativity and associativity of the sum are all that is
  used, and they hold at the infinities too.

  The three frames: each program terminates without a fault and leaves its arguments unchanged. The idealization
  rewrote no operation, so there is nothing to preserve. The two results are the same function of the arguments.
-/
import proofs.«155695_j76647986365123_2_alg».proof.Defs
import proofs.«155695_j76647986365123_2_alg».proof.Proof.Gen.Kernel
import proofs.«155695_j76647986365123_2_alg».proof.Proof.Gen.Kernel.Skeleton
import proofs.«155695_j76647986365123_2_alg».proof.Proof.Gen.Kernel.Launch
import proofs.«155695_j76647986365123_2_alg».proof.Proof.Gen.Kernel.Points
import proofs.«155695_j76647986365123_2_alg».proof.Proof.Gen.Kernel.Frame
import proofs.«155695_j76647986365123_2_alg».proof.Proof.Gen.KernelIdeal
import proofs.«155695_j76647986365123_2_alg».proof.Proof.Gen.KernelIdeal.Skeleton
import proofs.«155695_j76647986365123_2_alg».proof.Proof.Gen.KernelIdeal.Launch
import proofs.«155695_j76647986365123_2_alg».proof.Proof.Gen.KernelIdeal.Points
import proofs.«155695_j76647986365123_2_alg».proof.Proof.Gen.KernelIdeal.Frame
import proofs.«155695_j76647986365123_2_alg».proof.Proof.Gen.ReferenceIdeal
import proofs.«155695_j76647986365123_2_alg».proof.Proof.Gen.ReferenceIdeal.Run
import proofs.«155695_j76647986365123_2_alg».proof.Proof.Gen.ReferenceIdeal.Read
import proofs.«155695_j76647986365123_2_alg».proof.Proof.Gen.Pre_finite_inputs
import Idealize.ShloMosaic.Adequacy
import Idealize.ShloMosaic.Init
import proofs.«155695_j76647986365123_2_alg».proof.Proof.KernelRun
import proofs.«155695_j76647986365123_2_alg».proof.Proof.RefValue

noncomputable section

namespace Cert.Proof

open Idealize.ShloMosaic Idealize.ShloMosaic.TcCoe Idealize.SL.Sem

/-- The kernel program as printed runs to the end and keeps its arguments. -/
theorem frame_kernel : Cert.frame_Kernel := fun m ρ _ => Cert.Kernel.Gen.frame m ρ

/-- So does the kernel program read over the extended reals. -/
theorem frame_kernel_ideal : Cert.frame_KernelIdeal := fun m ρ _ => Cert.KernelIdeal.Gen.frame m ρ

/-- The reference has no launch: its run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- No operation was rewritten. -/
theorem preserves : Cert.preserves_Kernel_KernelIdeal := trivial

/-- Both programs end with the averaged embedding of the arguments, which agree. -/
theorem algebraic : Cert.algebraic_KernelIdeal_ReferenceIdeal := by
  intro m ρ m' ρ' _ hagree
  refine ⟨fun c => Cert.AvgEmbed.meanEmbed
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.AvgEmbed.Run.run m ρ, ?_⟩
  refine (θ_run Cert.ReferenceIdeal.defs _ _).mono (fun _ h c => ⟨?_, (h c).2⟩)
    (Cert.ReferenceIdeal.Value.run (F := Ideal) m' ρ')
  refine (h c).1.trans ((Cert.ReferenceIdeal.Read.val_main_v5_eq _ _).trans ((Cert.AvgEmbed.Ref.ref_eq _ _).trans ?_))
  rw [(hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
